-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x64x64x64 : Shape := ⟨5, ![32, 8, 64, 64, 64]⟩
abbrev S32x32 : Shape := ⟨2, ![32, 32]⟩
abbrev S_ : Shape := ⟨0, ![]⟩

class Facts : Prop where
  bcast_S_S32x8x64x64x64 : S_.BroadcastsInDim S32x8x64x64x64 (![] : Fin 0 → Fin S32x8x64x64x64.rank)
  reducesTo_S32x8x64x64x64_S_d0_1_2_3_4 : S32x8x64x64x64.ReducesTo [0, 1, 2, 3, 4] S_
  h_S_ : 0 < S_.numel
  bcast_S_S32x32 : S_.BroadcastsInDim S32x32 (![] : Fin 0 → Fin S32x32.rank)
  reducesTo_S32x32_S_d0_1 : S32x32.ReducesTo [0, 1] S_

variable [Facts]

def fn {F : FTy → Type} [FloatOps F] (main_arg0 : FVec F S32x8x64x64x64 .f32) (main_arg1 : FVec F S32x32 .f32) (main_arg2 : FVec F S32x32 .f32) : IVec S_ 1 :=
  let main_v0 : FVec F S32x8x64x64x64 .f32 := Host.absf main_arg0
  let main_cst : FVec F S_ .f32 := constant S_ .f32 0x7F800000#32
  let main_v1 : FVec F S32x8x64x64x64 .f32 := broadcastInDim S32x8x64x64x64 ![] bcast_S_S32x8x64x64x64 main_cst
  let main_v2 : IVec S32x8x64x64x64 1 := cmpf .olt main_v0 main_v1
  let main_c : IVec S_ 1 := constantI S_ 1 1#1
  let main_v3 : IVec S_ 1 := (fun x v => Host.reduce IntOp.andi x v reducesTo_S32x8x64x64x64_S_d0_1_2_3_4 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  main_v13
-- ==== Kernel.lean ====
abbrev S32x8x64x64x64 : Shape := ⟨5, ![32, 8, 64, 64, 64]⟩
abbrev S32x32 : Shape := ⟨2, ![32, 32]⟩
abbrev S32x8x64x4096 : Shape := ⟨4, ![32, 8, 64, 4096]⟩
abbrev S32x8x1x1 : Shape := ⟨4, ![32, 8, 1, 1]⟩
abbrev S1x8x64x4096 : Shape := ⟨4, ![1, 8, 64, 4096]⟩
abbrev S1x8x1x1 : Shape := ⟨4, ![1, 8, 1, 1]⟩
abbrev S1x8x64 : Shape := ⟨3, ![1, 8, 64]⟩
abbrev S1x8 : Shape := ⟨2, ![1, 8]⟩
abbrev S32x8 : Shape := ⟨2, ![32, 8]⟩
abbrev S8x32 : Shape := ⟨2, ![8, 32]⟩
abbrev S_ : Shape := ⟨0, ![]⟩

abbrev nBuf : Space → Nat
  | .hbm => 26
  | .vmem => 10
  | .smem => 0
  | _ => 0

abbrev bufTy : (tb : Table) → Fin (tcTables nBuf tb) → BufTy
  | .hbm, ⟨0, _⟩ => ⟨S32x8x64x64x64, .f32⟩
  | .hbm, ⟨1, _⟩ => ⟨S32x32, .f32⟩
  | .hbm, ⟨2, _⟩ => ⟨S32x32, .f32⟩
  | .hbm, ⟨3, _⟩ => ⟨S32x8x64x4096, .f32⟩
  | .hbm, ⟨4, _⟩ => ⟨S32x8x1x1, .f32⟩
  | .hbm, ⟨5, _⟩ => ⟨S32x8, .f32⟩
  | .hbm, ⟨6, _⟩ => ⟨S8x32, .f32⟩
  | .hbm, ⟨7, _⟩ => ⟨S32x32, .f32⟩
  | .hbm, ⟨8, _⟩ => ⟨S8x32, .f32⟩
  | .hbm, ⟨9, _⟩ => ⟨S_, .f32⟩
  | .hbm, ⟨10, _⟩ => ⟨S8x32, .f32⟩
  | .hbm, ⟨11, _⟩ => ⟨S8x32, .f32⟩
  | .hbm, ⟨12, _⟩ => ⟨S32x32, .f32⟩
  | .hbm, ⟨13, _⟩ => ⟨S8x32, .f32⟩
  | .hbm, ⟨14, _⟩ => ⟨S8x32, .f32⟩
  | .hbm, ⟨15, _⟩ => ⟨S8x32, .f32⟩
  | .hbm, ⟨16, _⟩ => ⟨S_, .f32⟩
  | .hbm, ⟨17, _⟩ => ⟨S8x32, .f32⟩
  | .hbm, ⟨18, _⟩ => ⟨S8x32, .f32⟩
  | .hbm, ⟨19, _⟩ => ⟨S_, .f32⟩
  | .hbm, ⟨20, _⟩ => ⟨S8x32, .f32⟩
  | .hbm, ⟨21, _⟩ => ⟨S8x32, .f32⟩
  | .hbm, ⟨22, _⟩ => ⟨S32x8, .f32⟩
  | .hbm, ⟨23, _⟩ => ⟨S32x8x1x1, .f32⟩
  | .hbm, ⟨24, _⟩ => ⟨S32x8x64x4096, .f32⟩
  | .hbm, ⟨25, _⟩ => ⟨S32x8x64x64x64, .f32⟩
  | .local _ .vmem, ⟨0, _⟩ => ⟨S1x8x64x4096, .f32⟩
  | .local _ .vmem, ⟨1, _⟩ => ⟨S1x8x64x4096, .f32⟩
  | .local _ .vmem, ⟨2, _⟩ => ⟨S1x8x1x1, .f32⟩
  | .local _ .vmem, ⟨3, _⟩ => ⟨S1x8x1x1, .f32⟩
  | .local _ .vmem, ⟨4, _⟩ => ⟨S1x8x64x4096, .f32⟩
  | .local _ .vmem, ⟨5, _⟩ => ⟨S1x8x64x4096, .f32⟩
  | .local _ .vmem, ⟨6, _⟩ => ⟨S1x8x1x1, .f32⟩
  | .local _ .vmem, ⟨7, _⟩ => ⟨S1x8x1x1, .f32⟩
  | .local _ .vmem, ⟨8, _⟩ => ⟨S1x8x64x4096, .f32⟩
  | .local _ .vmem, ⟨9, _⟩ => ⟨S1x8x64x4096, .f32⟩
  | _, _ => ⟨S32x8x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_cst : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x8x64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x8x64x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S32x8x64x64x64_S32x8x64x4096 : S32x8x64x64x64.ShapeCasts S32x8x64x4096
  inb_S1x8x64x4096_S1x8x64x4096_0_0_0_0 : ∀ a, (![0, 0, 0, 0] : Fin 4 → Nat) a + S1x8x64x4096.size a ≤ S1x8x64x4096.size a
  h_S1x8x64x4096 : 0 < S1x8x64x4096.numel
  shapeCasts_S1x8x64x4096_S1x8x64x4096 : S1x8x64x4096.ShapeCasts S1x8x64x4096
  reduces_S1x8x64x4096_S1x8x64 : S1x8x64x4096.Reduces [3] S1x8x64
  reduces_S1x8x64_S1x8 : S1x8x64.Reduces [2] S1x8
  shapeCasts_S1x8_S1x8x1x1 : S1x8.ShapeCasts S1x8x1x1
  inb_S1x8x1x1_S1x8x1x1_0_0_0_0 : ∀ a, (![0, 0, 0, 0] : Fin 4 → Nat) a + S1x8x1x1.size a ≤ S1x8x1x1.size a
  h_S1x8x1x1 : 0 < S1x8x1x1.numel
  shapeCasts_S32x8x1x1_S32x8 : S32x8x1x1.ShapeCasts S32x8
  transposes_S32x8_S8x32_1_0 : S32x8.Transposes [1, 0] S8x32
  transposes_S32x32_S32x32_1_0 : S32x32.Transposes [1, 0] S32x32
  bcast_S_S8x32 : S_.BroadcastsInDim S8x32 (![] : Fin 0 → Fin S8x32.rank)
  transposes_S8x32_S32x8_1_0 : S8x32.Transposes [1, 0] S32x8
  shapeCasts_S32x8_S32x8x1x1 : S32x8.ShapeCasts S32x8x1x1
  shapeCasts_S1x8x1x1_S1x8x1x1 : S1x8x1x1.ShapeCasts S1x8x1x1
  broadcasts_S1x8x1x1_S1x8x64x4096 : S1x8x1x1.Broadcasts S1x8x64x4096
  shapeCasts_S32x8x64x4096_S32x8x64x64x64 : S32x8x64x4096.ShapeCasts S32x8x64x64x64
  dot_S8x32_S32x32_S8x32_1_0_0_1_n_n_wf : DotDims.WF S8x32 S32x32 S8x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x64x4096.size a ≤ S32x8x64x4096.size a
  hwx0_0 : ∀ i : grid0.Coords, EltTy.bits .f32 = 32 ∨ (Rect.block (s := S32x8x64x4096) S1x8x64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x1x1.size a ≤ S32x8x1x1.size a
  hwx0_1 : ∀ i : grid0.Coords, EltTy.bits .f32 = 32 ∨ (Rect.block (s := S32x8x1x1) S1x8x1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8x64x4096.size a ≤ S32x8x64x4096.size a
  hwx1_0 : ∀ i : grid1.Coords, EltTy.bits .f32 = 32 ∨ (Rect.block (s := S32x8x64x4096) S1x8x64x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x1x1.size a ≤ S32x8x1x1.size a
  hwx1_1 : ∀ i : grid1.Coords, EltTy.bits .f32 = 32 ∨ (Rect.block (s := S32x8x1x1) S1x8x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x64x4096.size a ≤ S32x8x64x4096.size a
  hwx1_2 : ∀ i : grid1.Coords, EltTy.bits .f32 = 32 ∨ (Rect.block (s := S32x8x64x4096) S1x8x64x4096.size (cc1_transform_2 i) (hinb1_2 i)).WholeWords (EltTy.packing .f32)

variable [Facts₀]

def dot_S8x32_S32x32_S8x32_1_0_0_1_n_n : DotDims S8x32 S32x32 S8x32 where
  lhsContracting := [1]
  rhsContracting := [0]
  lhsNonContracting := [0]
  rhsNonContracting := [1]
  lhsBatch := []
  rhsBatch := []
  wf := dot_S8x32_S32x32_S8x32_1_0_0_1_n_n_wf

abbrev win0_0 : Pipeline.Window sig grid0 :=
  Pipeline.Window.ofSpec (Memref.whole main_v0) S1x8x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8x1x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1x8x64x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x8x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x8x64x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x8x64x64x64 : Shape := ⟨5, ![32, 8, 64, 64, 64]⟩
abbrev S32x32 : Shape := ⟨2, ![32, 32]⟩
abbrev S_ : Shape := ⟨0, ![]⟩
abbrev S32x8 : Shape := ⟨2, ![32, 8]⟩
abbrev S8x32 : Shape := ⟨2, ![8, 32]⟩
abbrev S32x8x1x1x1 : Shape := ⟨5, ![32, 8, 1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S32x8x64x64x64, .f32⟩
  | .hbm, ⟨1, _⟩ => ⟨S32x32, .f32⟩
  | .hbm, ⟨2, _⟩ => ⟨S32x32, .f32⟩
  | .hbm, ⟨3, _⟩ => ⟨S_, .f32⟩
  | .hbm, ⟨4, _⟩ => ⟨S32x8, .f32⟩
  | .hbm, ⟨5, _⟩ => ⟨S_, .f32⟩
  | .hbm, ⟨6, _⟩ => ⟨S32x8, .f32⟩
  | .hbm, ⟨7, _⟩ => ⟨S32x8, .f32⟩
  | .hbm, ⟨8, _⟩ => ⟨S8x32, .f32⟩
  | .hbm, ⟨9, _⟩ => ⟨S32x32, .f32⟩
  | .hbm, ⟨10, _⟩ => ⟨S8x32, .f32⟩
  | .hbm, ⟨11, _⟩ => ⟨S_, .f32⟩
  | .hbm, ⟨12, _⟩ => ⟨S8x32, .f32⟩
  | .hbm, ⟨13, _⟩ => ⟨S8x32, .f32⟩
  | .hbm, ⟨14, _⟩ => ⟨S32x32, .f32⟩
  | .hbm, ⟨15, _⟩ => ⟨S8x32, .f32⟩
  | .hbm, ⟨16, _⟩ => ⟨S8x32, .f32⟩
  | .hbm, ⟨17, _⟩ => ⟨S8x32, .f32⟩
  | .hbm, ⟨18, _⟩ => ⟨S_, .f32⟩
  | .hbm, ⟨19, _⟩ => ⟨S8x32, .f32⟩
  | .hbm, ⟨20, _⟩ => ⟨S8x32, .f32⟩
  | .hbm, ⟨21, _⟩ => ⟨S_, .f32⟩
  | .hbm, ⟨22, _⟩ => ⟨S8x32, .f32⟩
  | .hbm, ⟨23, _⟩ => ⟨S8x32, .f32⟩
  | .hbm, ⟨24, _⟩ => ⟨S32x8, .f32⟩
  | .hbm, ⟨25, _⟩ => ⟨S32x8x1x1x1, .f32⟩
  | .hbm, ⟨26, _⟩ => ⟨S32x8x64x64x64, .f32⟩
  | .hbm, ⟨27, _⟩ => ⟨S32x8x64x64x64, .f32⟩
  | _, _ => ⟨S32x8x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  reducesTo_S32x8x64x64x64_S32x8_d2_3_4 : S32x8x64x64x64.ReducesTo [2, 3, 4] S32x8
  h_S_ : 0 < S_.numel
  bcast_S_S32x8 : S_.BroadcastsInDim S32x8 (![] : Fin 0 → Fin S32x8.rank)
  transposes_S32x8_S8x32_1_0 : S32x8.Transposes [1, 0] S8x32
  transposes_S32x32_S32x32_1_0 : S32x32.Transposes [1, 0] S32x32
  bcast_S_S8x32 : S_.BroadcastsInDim S8x32 (![] : Fin 0 → Fin S8x32.rank)
  transposes_S8x32_S32x8_1_0 : S8x32.Transposes [1, 0] S32x8
  bcast_S32x8_S32x8x1x1x1_0_1 : S32x8.BroadcastsInDim S32x8x1x1x1 (![0, 1] : Fin 2 → Fin S32x8x1x1x1.rank)
  bcast_S32x8x1x1x1_S32x8x64x64x64_0_1_2_3_4 : S32x8x1x1x1.BroadcastsInDim S32x8x64x64x64 (![0, 1, 2, 3, 4] : Fin 5 → Fin S32x8x64x64x64.rank)
  dot_S8x32_S32x32_S8x32_1_0_0_1_n_n_wf : DotDims.WF S8x32 S32x32 S8x32 [1] [0] [0] [1] [] []

variable [Facts₀]

def dot_S8x32_S32x32_S8x32_1_0_0_1_n_n : DotDims S8x32 S32x32 S8x32 where
  lhsContracting := [1]
  rhsContracting := [0]
  lhsNonContracting := [0]
  rhsNonContracting := [1]
  lhsBatch := []
  rhsBatch := []
  wf := dot_S8x32_S32x32_S8x32_1_0_0_1_n_n_wf

class Facts : Prop extends Facts₀ where

variable [Facts]
-- ==== Proof.RunValue.lean ====
/-
  The idealized kernel's run with its RESULT named. The program is two pipelined regions among stretches of host
  operations; the contents of every unscoped buffer at each boundary are a fold from the launch memory, and the last
  boundary's contents are `Gen.W7`. Here the library's several-region launch theorem is applied to the generated
  segment records once more, reading off the last thread state not only the three argument arrays but also the
  result buffer `main_v18`: after every weakly fair execution it holds `W7 m ρ c main_v18`.
-/
import proofs.«170545_j72413148610925_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v18) = W7 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v18 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

end Cert.KernelIdeal.RunValue

end
-- ==== Proof.Spec.lean ====
/-
  The mathematics of the squeeze-and-excite gate, stated over literal shapes and with no program in sight.

  * `pool x t b`: the mean of the [64, 4096] slab of an array x : [32, 8, 64, 4096] at (t, b), taken as the kernel takes it,
    one trailing axis at a time: the mean over the 64 channels of each channel's mean over its 4096 positions.
  * The other side takes ONE mean over all 64 · 64 · 64 entries of the slab of the rank-5 array. Over FINITE entries the
    two are the same real number: division by a positive real is multiplication by its reciprocal, which distributes
    over a finite sum of reals, and 4096 · 64 = 262144. (With infinite entries the inner quotients could already be
    infinite of both signs; the hypothesis of finite inputs is what is used here.)
  * The entries that a sum over the three trailing axes of [32, 8, 64, 64, 64] sends to (t, b) are exactly the entries
    (t, b, c, h, w): they are counted once each by c and the row-major position q = 64 h + w inside the channel.
-/
import Idealize.ShloMosaic.PureOps.Ideal
import Idealize.ShloMosaic.PureOps.Ideal.Laws
import Idealize.ShloMosaic.PureOps.Reduce
import Idealize.ShloMosaic.Lib.ValueIdx

noncomputable section

namespace Cert.Squeeze

open Idealize.ShloMosaic Idealize.ShloMosaic.ValueIdx

abbrev X5 : Shape := ⟨5, ![32, 8, 64, 64, 64]⟩
abbrev X4 : Shape := ⟨4, ![32, 8, 64, 4096]⟩
abbrev P4 : Shape := ⟨4, ![32, 8, 1, 1]⟩
abbrev P2 : Shape := ⟨2, ![32, 8]⟩

/-! ## The three divisors -/

theorem ofBits_4096 : Ideal.ofBits .f32 0x45800000#32 = ((4096 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_262144 : Ideal.ofBits .f32 0x48800000#32 = ((262144 : ℝ) : EReal) := by
  simp [Ideal.ofBits, Ideal.ieee, -EReal.coe_mul]; norm_num

/-! ## The pooled value, the kernel's way -/

/-- The mean over the channels of each channel's mean, at (t, b). -/
def pool (x : X4.Idx → EReal) (t : Fin 32) (b : Fin 8) : EReal :=
  Ideal.div (∑ c : Fin 64, Ideal.div (∑ q : Fin 4096, x (ix4 t b c q)) (Ideal.ofBits .f32 0x45800000#32))
    (Ideal.ofBits .f32 0x42800000#32)

/-- The pooled array [32, 8, 1, 1]. -/
def pooled (x : X4.Idx → EReal) : P4.Idx → EReal :=
  fun i => pool x ⟨(i 0).val, (i 0).isLt⟩ ⟨(i 1).val, (i 1).isLt⟩

/-- The scaled array: every entry of x times its (t, b)'s gate. -/
def scaled (x : X4.Idx → EReal) (d : P4.Idx → EReal) : X4.Idx → EReal :=
  fun i => x i * d (ix4 (⟨(i 0).val, (i 0).isLt⟩ : Fin 32) (⟨(i 1).val, (i 1).isLt⟩ : Fin 8) (0 : Fin 1) (0 : Fin 1))

/-! ## The law -/

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over reals, the mean of 64 means of 4096 entries is the mean of all 262144 entries. -/
theorem mean_of_means (f : Fin 64 → Fin 4096 → ℝ) :
    Ideal.div (∑ c : Fin 64, Ideal.div (∑ q : Fin 4096, (f c q : EReal)) ((4096 : ℝ) : EReal)) ((64 : ℝ) : EReal)
      = Ideal.div (0 + ∑ c : Fin 64, ∑ q : Fin 4096, (f c q : EReal)) ((262144 : ℝ) : EReal) := by
  rw [Ideal.div_coe (by norm_num : (64 : ℝ) ≠ 0), Ideal.div_coe (by norm_num : (262144 : ℝ) ≠ 0), zero_add]
  simp only [Ideal.div_coe (by norm_num : (4096 : ℝ) ≠ 0), ← coe_sum, ← EReal.coe_mul]
  refine congrArg _ ?_
  rw [← Finset.sum_mul]; ring

/-! ## The entries a sum over the three trailing axes collects -/

/-- Dropping the three trailing coordinates keeps the first two. -/
theorem drop_eq (h : X5.ReducesTo [2, 3, 4] P2) (i : X5.Idx) :
    h.drop i = ix2 (⟨(i 0).val, (i 0).isLt⟩ : Fin 32) (⟨(i 1).val, (i 1).isLt⟩ : Fin 8) := by
  funext a; apply Fin.ext
  match a with
  | ⟨0, _⟩ => exact h.drop_apply_val_of_eq i 0 0
  | ⟨1, _⟩ => exact h.drop_apply_val_of_eq i 1 1

/-- The sum of the entries that drop to (t, b) is the sum over the channel c and the position q = 64 h + w in it. -/
theorem sum_filter_drop (h : X5.ReducesTo [2, 3, 4] P2) (x : X5.Idx → EReal) (t : Fin 32) (b : Fin 8) :
    ∑ i ∈ Finset.univ.filter (fun i => h.drop i = ix2 t b), x i
      = ∑ c : Fin 64, ∑ q : Fin 4096,
          x (ix5 t b c (⟨q.val / 64, by have := q.isLt; omega⟩ : Fin 64) (⟨q.val % 64, by omega⟩ : Fin 64)) := by
  rw [← Finset.sum_product']
  refine Finset.sum_bij'
    (fun i _ => ((⟨(i 2).val, (i 2).isLt⟩ : Fin 64),
      (⟨(i 3).val * 64 + (i 4).val, by have h3 : (i 3).val < 64 := (i 3).isLt; have h4 : (i 4).val < 64 := (i 4).isLt; omega⟩ : Fin 4096)))
    (fun p _ => ix5 t b p.1 (⟨p.2.val / 64, by have := p.2.isLt; omega⟩ : Fin 64) (⟨p.2.val % 64, by omega⟩ : Fin 64))
    (fun _ _ => Finset.mem_product.2 ⟨Finset.mem_univ _, Finset.mem_univ _⟩)
    (fun p _ => Finset.mem_filter.2 ⟨Finset.mem_univ _, by rw [drop_eq]⟩)
    (fun i hi => by
      have hd := (Finset.mem_filter.1 hi).2
      rw [drop_eq] at hd
      have h0 : (i 0).val = t.val := congrArg (fun j : P2.Idx => (j 0).val) hd
      have h1 : (i 1).val = b.val := congrArg (fun j : P2.Idx => (j 1).val) hd
      have h4 : (i 4).val < 64 := (i 4).isLt
      funext a; apply Fin.ext
      match a with
      | ⟨0, _⟩ => exact h0.symm
      | ⟨1, _⟩ => exact h1.symm
      | ⟨2, _⟩ => rfl
      | ⟨3, _⟩ => show ((i 3).val * 64 + (i 4).val) / 64 = (i 3).val; omega
      | ⟨4, _⟩ => show ((i 3).val * 64 + (i 4).val) % 64 = (i 4).val; omega)
    (fun p _ => Prod.ext (Fin.ext rfl) (Fin.ext (by
      show p.2.val / 64 * 64 + p.2.val % 64 = p.2.val; omega)))
    (fun i hi => by
      have hd := (Finset.mem_filter.1 hi).2
      rw [drop_eq] at hd
      have h0 : (i 0).val = t.val := congrArg (fun j : P2.Idx => (j 0).val) hd
      have h1 : (i 1).val = b.val := congrArg (fun j : P2.Idx => (j 1).val) hd
      have h4 : (i 4).val < 64 := (i 4).isLt
      refine congrArg x ?_
      funext a; apply Fin.ext
      match a with
      | ⟨0, _⟩ => exact h0
      | ⟨1, _⟩ => exact h1
      | ⟨2, _⟩ => rfl
      | ⟨3, _⟩ => show (i 3).val = ((i 3).val * 64 + (i 4).val) / 64; omega
      | ⟨4, _⟩ => show (i 4).val = ((i 3).val * 64 + (i 4).val) % 64; omega)

end Cert.Squeeze

end
-- ==== Proof.Reduce.lean ====
/-
  The first region (the pooling kernel) as one function of the array it finds.

  Its grid has 32 points; at point t the input block is slab t of the [32, 8, 64, 4096] array and the output block is row
  t of the [32, 8, 1, 1] array. The body sums the input block along its last axis, divides by 4096, sums the result
  along the channel axis, divides by 64, and stores the [1, 8] result as a [1, 8, 1, 1] block. A sum along one axis read at
  an index is the sum over that axis's coordinates of the operand at the index with the coordinate inserted, so the
  stored entry (0, b, 0, 0) is `pool` of the input block at (0, b); read through the windows that is `pool` of the input array
  at (t, b). The 32 rows cover the output array, which after the region IS `pooled` of the input array.
-/
import proofs.«170545_j72413148610925_2_alg».proof.Proof.Gen.KernelIdeal.Frame
import proofs.«170545_j72413148610925_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Pool

open Cert.KernelIdeal Cert.KernelIdeal.Gen Cert.Squeeze
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The input array as the region finds it, typed as an array of extended reals. -/
abbrev xArr (c : Dev nD) : S32x8x64x4096.Idx → EReal := V c main_v0

theorem zero4 : (![0, 0, 0, 0] : Fin 4 → Nat) = fun _ => 0 := funext fun a => by fin_cases a <;> rfl

/-- The body's stored value at the entry (0, b, 0, 0) of the output block: the mean over the channels of each channel's
    mean over its positions, of the input block's (0, b) slab. -/
theorem pay_apply (x0 : FVec Ideal S1x8x64x4096 .f32) (y : S1x8x1x1.Idx) :
    k0_pay1 (F := Ideal) x0 y
      = Ideal.div (∑ c : Fin 64, Ideal.div (∑ q : Fin 4096, x0 (ix4 (0 : Fin 1) (⟨(y 1).val, (y 1).isLt⟩ : Fin 8) c q))
          (Ideal.ofBits .f32 0x45800000#32)) (Ideal.ofBits .f32 0x42800000#32) := by
  unfold k0_pay1
  dsimp only
  rw [shapeCast_self]
  refine (shapeCast_apply _ shapeCasts_S1x8_S1x8x1x1 y (ix2 (0 : Fin 1) (⟨(y 1).val, (y 1).isLt⟩ : Fin 8)) ?_).trans ?_
  · rw [Shape.rowMajor_val_two, Shape.rowMajor_val_four]
    have h0 : (y 0).val < 1 := (y 0).isLt
    have h2 : (y 2).val < 1 := (y 2).isLt
    have h3 : (y 3).val < 1 := (y 3).isLt
    show 0 * 8 + (y 1).val = (((y 0).val * 8 + (y 1).val) * 1 + (y 2).val) * 1 + (y 3).val
    omega
  · refine congrArg (Ideal.div · (Ideal.ofBits .f32 0x42800000#32)) ?_
    refine (Ideal.multiReduction_add_single _ 0x00000000#32 reduces_S1x8x64_S1x8 (.inl rfl) rfl
      (ix2 (0 : Fin 1) (⟨(y 1).val, (y 1).isLt⟩ : Fin 8))).trans ?_
    refine Finset.sum_congr rfl fun c _ => ?_
    refine congrArg (Ideal.div · (Ideal.ofBits .f32 0x45800000#32)) ?_
    refine (Ideal.multiReduction_add_single x0 0x00000000#32 reduces_S1x8x64x4096_S1x8x64 (.inl rfl) rfl _).trans ?_
    refine Finset.sum_congr rfl fun q _ => congrArg x0 ?_
    funext a; apply Fin.ext
    match a with
    | ⟨0, _⟩ => rfl
    | ⟨1, _⟩ => rfl
    | ⟨2, _⟩ => rfl
    | ⟨3, _⟩ => rfl

/-- The printed index maps over the grid: at point t both windows' block index is (t, 0, 0, 0). -/
theorem index_facts : ∀ t : Fin cfg0.N, win0_0.index t = ![t.val, 0, 0, 0] ∧ win0_1.index t = ![t.val, 0, 0, 0] :=
  (by decide +kernel : ∀ t : Fin grid0.N, win0_0.index t = ![t.val, 0, 0, 0] ∧ win0_1.index t = ![t.val, 0, 0, 0])

/-- What point t writes back is row t of `pooled` of the input array as the region finds it. -/
theorem flushed_eq (c : Dev nD) (t : Fin cfg0.N) :
    (dat0 V c).flushed 1 t = ((cfg0.win 1).blk t).view.read (Elt Ideal) (pooled (V c main_v0)) := by
  show (cfg0.win 1).cut (grid0.coords t) ((dat0 V c).after 1 t) = _
  rw [after0_1]
  unfold out0_1
  rw [View.canon_unit_zero zero4]
  simp only [View.ld_unit_zero (S := S1x8x64x4096) zero4]
  obtain ⟨e0, e1⟩ := index_facts t
  funext j
  refine (pay_apply (iblk0 V c 0 t) j).trans ?_
  show Ideal.div (∑ k : Fin 64, Ideal.div (∑ q : Fin 4096,
        xArr V c (((cfg0.win 0).blk t).view.emb (ix4 (0 : Fin 1) (⟨(j 1).val, (j 1).isLt⟩ : Fin 8) k q)))
          (Ideal.ofBits .f32 0x45800000#32)) (Ideal.ofBits .f32 0x42800000#32)
    = Ideal.div (∑ k : Fin 64, Ideal.div (∑ q : Fin 4096,
        xArr V c (ix4 (⟨((((cfg0.win 1).blk t).view.emb j) 0).val, ((((cfg0.win 1).blk t).view.emb j) 0).isLt⟩ : Fin 32)
          (⟨((((cfg0.win 1).blk t).view.emb j) 1).val, ((((cfg0.win 1).blk t).view.emb j) 1).isLt⟩ : Fin 8) k q))
          (Ideal.ofBits .f32 0x45800000#32)) (Ideal.ofBits .f32 0x42800000#32)
  have h : ∀ (k : Fin 64) (q : Fin 4096),
      ((cfg0.win 0).blk t).view.emb (ix4 (0 : Fin 1) (⟨(j 1).val, (j 1).isLt⟩ : Fin 8) k q)
        = ix4 (⟨((((cfg0.win 1).blk t).view.emb j) 0).val, ((((cfg0.win 1).blk t).view.emb j) 0).isLt⟩ : Fin 32)
          (⟨((((cfg0.win 1).blk t).view.emb j) 1).val, ((((cfg0.win 1).blk t).view.emb j) 1).isLt⟩ : Fin 8) k q := by
    intro k q
    have hj0 : (j 0).val < 1 := (j 0).isLt
    funext a; apply Fin.ext
    match a with
    | ⟨0, _⟩ =>
      show win0_0.index t (0 : Fin 4) * 1 + 1 * 0 = win0_1.index t (0 : Fin 4) * 1 + 1 * (j 0).val
      rw [e0, e1]; show t.val * 1 + 1 * 0 = t.val * 1 + 1 * (j 0).val; omega
    | ⟨1, _⟩ =>
      show win0_0.index t (1 : Fin 4) * 8 + 1 * (j 1).val = win0_1.index t (1 : Fin 4) * 8 + 1 * (j 1).val
      rw [e0, e1]
    | ⟨2, _⟩ => show win0_0.index t (2 : Fin 4) * 64 + 1 * k.val = k.val; rw [e0]; show 0 * 64 + 1 * k.val = k.val; omega
    | ⟨3, _⟩ => show win0_0.index t (3 : Fin 4) * 4096 + 1 * q.val = q.val; rw [e0]; show 0 * 4096 + 1 * q.val = q.val; omega
  simp only [h]

/-- An index of the output array is in point t's block iff each coordinate is in the block's range on its axis. -/
theorem mem_blk (t : Fin cfg0.N) (i : S32x8x1x1.Idx) :
    i ∈ ((cfg0.win 1).blk t).view.set ↔ ∀ a : Fin 4, win0_1.index t a * S1x8x1x1.size a ≤ (i a).val
      ∧ (i a).val < win0_1.index t a * S1x8x1x1.size a + S1x8x1x1.size a := by
  show i ∈ ((View.whole main_v1).slice (win0_1.rect t)).set ↔ _
  rw [View.set_slice_whole, Rect.mem_set_unit]
  exact Iff.rfl

/-- Every index of the output array is in the block of the point named by its first coordinate. -/
theorem cover (i : S32x8x1x1.Idx) :
    ∃ t : Fin cfg0.N, (cfg0.win 1).flush t = true ∧ i ∈ ((cfg0.win 1).blk t).view.set := by
  have hi0 : (i 0).val < 32 := (i 0).isLt
  have hi1 : (i 1).val < 8 := (i 1).isLt
  have hi2 : (i 2).val < 1 := (i 2).isLt
  have hi3 : (i 3).val < 1 := (i 3).isLt
  refine ⟨⟨(i 0).val, hi0⟩, flush0_1 _, ?_⟩
  rw [mem_blk]
  obtain ⟨-, e1⟩ := index_facts ⟨(i 0).val, hi0⟩
  intro a
  rw [e1]
  match a with
  | ⟨0, _⟩ => show (i 0).val * 1 ≤ (i 0).val ∧ (i 0).val < (i 0).val * 1 + 1; omega
  | ⟨1, _⟩ => show 0 * 8 ≤ (i 1).val ∧ (i 1).val < 0 * 8 + 8; omega
  | ⟨2, _⟩ => show 0 * 1 ≤ (i 2).val ∧ (i 2).val < 0 * 1 + 1; omega
  | ⟨3, _⟩ => show 0 * 1 ≤ (i 3).val ∧ (i 3).val < 0 * 1 + 1; omega

/-- After the region its output array is `pooled` of the input array as the region found it. -/
theorem final (c : Dev nD) : (dat0 V c).arrAt 1 cfg0.N = pooled (V c main_v0) :=
  (dat0 V c).arrAt_eq_of_cover 1 (pooled (V c main_v0)) (fun t _ => flushed_eq V c t) cover

end Cert.KernelIdeal.Pool

end
-- ==== Proof.Scale.lean ====
/-
  The second region (the scale kernel) as one function of the arrays it finds.

  Its grid has 32 points; at point t every window's block is slab t of its array: rows [t, 0.., 0.., 0..] of the
  [32, 8, 64, 4096] input and output, and of the [32, 8, 1, 1] gate. The body multiplies the input block entry by entry
  with the gate block broadcast along the two trailing axes. So the block written back at point t is slab t of
  `scaled x d` (every entry of x times the gate of its (t, b)), the 32 slabs cover the output array, and after the
  region the output array IS `scaled x d` of the input arrays as the region found them.
-/
import proofs.«170545_j72413148610925_2_alg».proof.Proof.Gen.KernelIdeal.Frame
import proofs.«170545_j72413148610925_2_alg».proof.Proof.Spec
import Idealize.ShloMosaic.Lib.Pipeline.Value
import Idealize.ShloMosaic.Lib.ValueIdx

set_option maxRecDepth 16384

noncomputable section

namespace Cert.KernelIdeal.Scale

open Cert.KernelIdeal Cert.KernelIdeal.Gen Cert.Squeeze
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The two input arrays as the region finds them, typed as arrays of extended reals. -/
abbrev xArr (c : Dev nD) : S32x8x64x4096.Idx → EReal := V c main_v0
abbrev dArr (c : Dev nD) : S32x8x1x1.Idx → EReal := V c main_v16

theorem zero4 : (![0, 0, 0, 0] : Fin 4 → Nat) = fun _ => 0 := funext fun a => by fin_cases a <;> rfl

/-- The body's stored value at an entry (0, b, c, q) of the block: the input block's entry times the gate block's (0, b, 0, 0). -/
theorem pay_apply (x0 : FVec Ideal S1x8x64x4096 .f32) (x1 : FVec Ideal S1x8x1x1 .f32) (y : S1x8x64x4096.Idx) :
    k1_pay1 (F := Ideal) x0 x1 y = x0 y * x1 (ix4 (0 : Fin 1) (⟨(y 1).val, (y 1).isLt⟩ : Fin 8) (0 : Fin 1) (0 : Fin 1)) := by
  unfold k1_pay1
  dsimp only
  rw [shapeCast_self, shapeCast_self]
  show x0 y * broadcastTo S1x8x64x4096 x1 broadcasts_S1x8x1x1_S1x8x64x4096 y = _
  refine congrArg (x0 y * ·) ?_
  exact broadcastTo_apply x1 broadcasts_S1x8x1x1_S1x8x64x4096 y _ (fun a => by
    match a with
    | ⟨0, _⟩ => show 0 = if (1 : Nat) = 1 then 0 else (y 0).val; rw [if_pos rfl]
    | ⟨1, _⟩ => show (y 1).val = if (8 : Nat) = 1 then 0 else (y 1).val; rw [if_neg (by decide)]
    | ⟨2, _⟩ => show 0 = if (1 : Nat) = 1 then 0 else (y 2).val; rw [if_pos rfl]
    | ⟨3, _⟩ => show 0 = if (1 : Nat) = 1 then 0 else (y 3).val; rw [if_pos rfl])

/-- The printed index maps over the grid: at point t every window's block index is (t, 0, 0, 0). -/
theorem index_facts : ∀ t : Fin cfg1.N, win1_0.index t = ![t.val, 0, 0, 0] ∧ win1_1.index t = ![t.val, 0, 0, 0]
    ∧ win1_2.index t = ![t.val, 0, 0, 0] :=
  (by decide +kernel : ∀ t : Fin grid1.N, win1_0.index t = ![t.val, 0, 0, 0] ∧ win1_1.index t = ![t.val, 0, 0, 0]
    ∧ win1_2.index t = ![t.val, 0, 0, 0])

/-- What point t writes back is slab t of `scaled` of the two input arrays as the region finds them. -/
theorem flushed_eq (c : Dev nD) (t : Fin cfg1.N) :
    (dat1 V c).flushed 2 t = ((cfg1.win 2).blk t).view.read (Elt Ideal) (scaled (V c main_v0) (V c main_v16)) := by
  show (cfg1.win 2).cut (grid1.coords t) ((dat1 V c).after 2 t) = _
  rw [after1_2]
  unfold out1_2
  rw [View.canon_unit_zero zero4]
  simp only [View.ld_unit_zero (S := S1x8x64x4096) zero4, View.ld_unit_zero (S := S1x8x1x1) zero4]
  obtain ⟨e0, e1, e2⟩ := index_facts t
  funext j
  refine (pay_apply (iblk1 V c 0 t) (iblk1 V c 1 t) j).trans ?_
  show xArr V c (((cfg1.win 0).blk t).view.emb j)
      * dArr V c (((cfg1.win 1).blk t).view.emb (ix4 (0 : Fin 1) (⟨(j 1).val, (j 1).isLt⟩ : Fin 8) (0 : Fin 1) (0 : Fin 1)))
    = xArr V c (((cfg1.win 2).blk t).view.emb j)
      * dArr V c (ix4 (⟨((((cfg1.win 2).blk t).view.emb j) 0).val, ((((cfg1.win 2).blk t).view.emb j) 0).isLt⟩ : Fin 32)
          (⟨((((cfg1.win 2).blk t).view.emb j) 1).val, ((((cfg1.win 2).blk t).view.emb j) 1).isLt⟩ : Fin 8) (0 : Fin 1) (0 : Fin 1))
  have h0 : ((cfg1.win 0).blk t).view.emb j = ((cfg1.win 2).blk t).view.emb j := by
    funext a; apply Fin.ext
    match a with
    | ⟨0, _⟩ => show win1_0.index t (0 : Fin 4) * 1 + 1 * (j 0).val = win1_2.index t (0 : Fin 4) * 1 + 1 * (j 0).val; rw [e0, e2]
    | ⟨1, _⟩ => show win1_0.index t (1 : Fin 4) * 8 + 1 * (j 1).val = win1_2.index t (1 : Fin 4) * 8 + 1 * (j 1).val; rw [e0, e2]
    | ⟨2, _⟩ => show win1_0.index t (2 : Fin 4) * 64 + 1 * (j 2).val = win1_2.index t (2 : Fin 4) * 64 + 1 * (j 2).val; rw [e0, e2]
    | ⟨3, _⟩ => show win1_0.index t (3 : Fin 4) * 4096 + 1 * (j 3).val = win1_2.index t (3 : Fin 4) * 4096 + 1 * (j 3).val; rw [e0, e2]
  have h1 : ((cfg1.win 1).blk t).view.emb (ix4 (0 : Fin 1) (⟨(j 1).val, (j 1).isLt⟩ : Fin 8) (0 : Fin 1) (0 : Fin 1))
      = ix4 (⟨((((cfg1.win 2).blk t).view.emb j) 0).val, ((((cfg1.win 2).blk t).view.emb j) 0).isLt⟩ : Fin 32)
          (⟨((((cfg1.win 2).blk t).view.emb j) 1).val, ((((cfg1.win 2).blk t).view.emb j) 1).isLt⟩ : Fin 8) (0 : Fin 1) (0 : Fin 1) := by
    have hj0 : (j 0).val < 1 := (j 0).isLt
    funext a; apply Fin.ext
    match a with
    | ⟨0, _⟩ =>
      show win1_1.index t (0 : Fin 4) * 1 + 1 * 0 = win1_2.index t (0 : Fin 4) * 1 + 1 * (j 0).val
      rw [e1, e2]; show t.val * 1 + 1 * 0 = t.val * 1 + 1 * (j 0).val; omega
    | ⟨1, _⟩ =>
      show win1_1.index t (1 : Fin 4) * 8 + 1 * (j 1).val = win1_2.index t (1 : Fin 4) * 8 + 1 * (j 1).val
      rw [e1, e2]
    | ⟨2, _⟩ => show win1_1.index t (2 : Fin 4) * 1 + 1 * 0 = 0; rw [e1]; rfl
    | ⟨3, _⟩ => show win1_1.index t (3 : Fin 4) * 1 + 1 * 0 = 0; rw [e1]; rfl
  rw [h0, h1]

/-- An index of the output array is in point t's block iff each coordinate is in the block's range on its axis. -/
theorem mem_blk (t : Fin cfg1.N) (i : S32x8x64x4096.Idx) :
    i ∈ ((cfg1.win 2).blk t).view.set ↔ ∀ a : Fin 4, win1_2.index t a * S1x8x64x4096.size a ≤ (i a).val
      ∧ (i a).val < win1_2.index t a * S1x8x64x4096.size a + S1x8x64x4096.size a := by
  show i ∈ ((View.whole main_v17).slice (win1_2.rect t)).set ↔ _
  rw [View.set_slice_whole, Rect.mem_set_unit]
  exact Iff.rfl

/-- Every index of the output array is in the block of the point named by its first coordinate. -/
theorem cover (i : S32x8x64x4096.Idx) :
    ∃ t : Fin cfg1.N, (cfg1.win 2).flush t = true ∧ i ∈ ((cfg1.win 2).blk t).view.set := by
  have hi0 : (i 0).val < 32 := (i 0).isLt
  have hi1 : (i 1).val < 8 := (i 1).isLt
  have hi2 : (i 2).val < 64 := (i 2).isLt
  have hi3 : (i 3).val < 4096 := (i 3).isLt
  refine ⟨⟨(i 0).val, hi0⟩, flush1_2 _, ?_⟩
  rw [mem_blk]
  obtain ⟨-, -, e2⟩ := index_facts ⟨(i 0).val, hi0⟩
  intro a
  rw [e2]
  match a with
  | ⟨0, _⟩ => show (i 0).val * 1 ≤ (i 0).val ∧ (i 0).val < (i 0).val * 1 + 1; omega
  | ⟨1, _⟩ => show 0 * 8 ≤ (i 1).val ∧ (i 1).val < 0 * 8 + 8; omega
  | ⟨2, _⟩ => show 0 * 64 ≤ (i 2).val ∧ (i 2).val < 0 * 64 + 64; omega
  | ⟨3, _⟩ => show 0 * 4096 ≤ (i 3).val ∧ (i 3).val < 0 * 4096 + 4096; omega

/-- After the region its output array is `scaled` of the two input arrays as the region found them. -/
theorem final (c : Dev nD) : (dat1 V c).arrAt 2 cfg1.N = scaled (V c main_v0) (V c main_v16) :=
  (dat1 V c).arrAt_eq_of_cover 2 (scaled (V c main_v0) (V c main_v16)) (fun t _ => flushed_eq V c t) cover

end Cert.KernelIdeal.Scale

end
-- ==== Proof.HostSide.lean ====
/-
  The contents of the buffers at the boundaries between the program's segments, read back.

  Before the first region the input x : [32, 8, 64, 64, 64] is reshaped to [32, 8, 64, 4096]. The first region leaves the pooled
  array [32, 8, 1, 1]. Between the regions the host reshapes it to [32, 8], transposes, multiplies by w1ᵀ, takes the
  positive part, multiplies by w2ᵀ, applies the logistic function 1 / (1 + exp (−·)), transposes back and reshapes
  to [32, 8, 1, 1]: the gate chain, carried here as ONE function `gate` of the pooled [32, 8] array and the two
  weight arrays. The second region leaves `scaled` of the reshaped input and the gate; the last operation reshapes to
  [32, 8, 64, 64, 64]. No stretch and no region writes an argument array or the reshaped input.
-/
import proofs.«170545_j72413148610925_2_alg».proof.Proof.Gen.KernelIdeal.Frame
import proofs.«170545_j72413148610925_2_alg».proof.Proof.Spec
import proofs.«170545_j72413148610925_2_alg».proof.Proof.Reduce
import proofs.«170545_j72413148610925_2_alg».proof.Proof.Scale
import Idealize.ShloMosaic.Lib.StableHlo.Run

set_option maxRecDepth 16384

noncomputable section

namespace Cert.KernelIdeal.Host

open Cert.KernelIdeal Cert.KernelIdeal.Gen Cert.Squeeze
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The gate chain between the two regions as one function of the pooled [32, 8] array and the two weight arrays. -/
def gate (s : FVec Ideal S32x8 .f32) (w1 w2 : FVec Ideal S32x32 .f32) : FVec Ideal S32x8 .f32 :=
  transpose S32x8 [1, 0] (Host.divf (F := Ideal) (broadcastInDim S8x32 ![] bcast_S_S8x32 (constant (F := Ideal) S_ .f32 0x3F800000#32)) (addf (broadcastInDim S8x32 ![] bcast_S_S8x32 (constant (F := Ideal) S_ .f32 0x3F800000#32)) (Host.exp (F := Ideal) (Host.negf (F := Ideal) (Host.dotGeneral (F := Ideal) dot_S8x32_S32x32_S8x32_1_0_0_1_n_n (some .fp32) (maximumf (Host.dotGeneral (F := Ideal) dot_S8x32_S32x32_S8x32_1_0_0_1_n_n (some .fp32) (transpose S8x32 [1, 0] s transposes_S32x8_S8x32_1_0) (transpose S32x32 [1, 0] w1 transposes_S32x32_S32x32_1_0)) (broadcastInDim S8x32 ![] bcast_S_S8x32 (constant (F := Ideal) S_ .f32 0x00000000#32))) (transpose S32x32 [1, 0] w2 transposes_S32x32_S32x32_1_0)))))) transposes_S8x32_S32x8_1_0

/-! ## Before and inside the first region -/

/-- At the first region's entry the reshaped input is the reshape of the launched input. -/
theorem entry_x (c : Dev nD) :
    W1 m ρ c (Proc.devRef .tc main_v0)
      = shapeCast S32x8x64x4096 (m ((c : Thread nD τ).loc main_arg0)) shapeCasts_S32x8x64x64x64_S32x8x64x4096 := by
  dsimp only [W1, hostOps0]
  after_results <;> rfl

/-- The first region does not write its input array. -/
theorem exit0_x (c : Dev nD) : W2 m ρ c (Proc.devRef .tc main_v0) = W1 m ρ c (Proc.devRef .tc main_v0) :=
  (W2_arr m ρ c 0).trans (((dat0 (V1 m ρ) c).arrAt_in 0 rfl _).trans (A_eq0 (V1 m ρ) c 0))

/-- The first region leaves the pooled array. -/
theorem exit0_pooled (c : Dev nD) :
    W2 m ρ c (Proc.devRef .tc main_v1)
      = pooled (shapeCast S32x8x64x4096 (m ((c : Thread nD τ).loc main_arg0)) shapeCasts_S32x8x64x64x64_S32x8x64x4096) := by
  refine (W2_arr m ρ c 1).trans ((Pool.final (V1 m ρ) c).trans ?_)
  exact congrArg pooled (entry_x m ρ c)

/-- The first region writes neither weight array, and no operation before it does. -/
theorem exit0_w1 (c : Dev nD) : W2 m ρ c (Proc.devRef .tc main_arg1) = m ((c : Thread nD τ).loc main_arg1) := by
  refine (W2_of_ne m ρ c main_arg1 (by decide)).trans ?_
  dsimp only [W1, hostOps0]
  after_results <;> rfl

theorem exit0_w2 (c : Dev nD) : W2 m ρ c (Proc.devRef .tc main_arg2) = m ((c : Thread nD τ).loc main_arg2) := by
  refine (W2_of_ne m ρ c main_arg2 (by decide)).trans ?_
  dsimp only [W1, hostOps0]
  after_results <;> rfl

/-! ## Between the regions -/

/-- At the second region's entry the gate array is the gate chain of what the first region left. -/
theorem entry1_gate (c : Dev nD) :
    W5 m ρ c (Proc.devRef .tc main_v16)
      = shapeCast S32x8x1x1 (gate (shapeCast S32x8 (W2 m ρ c (Proc.devRef .tc main_v1)) shapeCasts_S32x8x1x1_S32x8)
          (W2 m ρ c (Proc.devRef .tc main_arg1)) (W2 m ρ c (Proc.devRef .tc main_arg2))) shapeCasts_S32x8_S32x8x1x1 := by
  dsimp only [W5, W4, W3, hostOps1_2, hostOps1_1, hostOps1]
  after_results <;> rfl

/-- The operations between the regions do not write the reshaped input. -/
theorem entry1_x (c : Dev nD) : W5 m ρ c (Proc.devRef .tc main_v0) = W2 m ρ c (Proc.devRef .tc main_v0) := by
  dsimp only [W5, W4, W3, hostOps1_2, hostOps1_1, hostOps1]
  after_results <;> rfl

/-! ## The second region and the last reshape -/

/-- The result buffer after the last operation: the reshape of what the second region left. -/
theorem result_eq (c : Dev nD) :
    W7 m ρ c (Proc.devRef .tc main_v18)
      = shapeCast S32x8x64x64x64
          (scaled (shapeCast S32x8x64x4096 (m ((c : Thread nD τ).loc main_arg0)) shapeCasts_S32x8x64x64x64_S32x8x64x4096)
            (shapeCast S32x8x1x1
              (gate (shapeCast S32x8 (pooled (shapeCast S32x8x64x4096 (m ((c : Thread nD τ).loc main_arg0)) shapeCasts_S32x8x64x64x64_S32x8x64x4096)) shapeCasts_S32x8x1x1_S32x8)
                (m ((c : Thread nD τ).loc main_arg1)) (m ((c : Thread nD τ).loc main_arg2))) shapeCasts_S32x8_S32x8x1x1))
          shapeCasts_S32x8x64x4096_S32x8x64x64x64 := by
  have h7 : W7 m ρ c (Proc.devRef .tc main_v18)
      = shapeCast S32x8x64x64x64 (W6 m ρ c (Proc.devRef .tc main_v17)) shapeCasts_S32x8x64x4096_S32x8x64x64x64 := by
    dsimp only [W7, hostOps2]
    after_results <;> rfl
  have h6 : W6 m ρ c (Proc.devRef .tc main_v17) = scaled (W5 m ρ c (Proc.devRef .tc main_v0)) (W5 m ρ c (Proc.devRef .tc main_v16)) :=
    (W6_arr m ρ c 2).trans (Scale.final (V5 m ρ) c)
  rw [h7, h6, entry1_x, exit0_x, entry_x, entry1_gate, exit0_pooled, exit0_w1, exit0_w2]

end Cert.KernelIdeal.Host

end
-- ==== Proof.RefSide.lean ====
/-
  The reference's side, and the two index-by-index facts that join it to the kernel's.

  The reference takes ONE mean over the three trailing axes of x : [32, 8, 64, 64, 64], runs the same gate chain, broadcasts the
  [32, 8] gate along the three trailing axes and multiplies it INTO x from the left.

  * `ref_pool`: the reference's mean at (t, b) is (0 + the sum over c and q = 64 h + w of x (t, b, c, h, w)) / 262144.
  * `pool_eq`: for FINITE x it is the kernel's pooled value (the mean over channels of channel means of the reshaped x),
    by `mean_of_means`; the reshape [32, 8, 64, 64, 64] → [32, 8, 64, 4096] sends (t, b, c, h, w) to (t, b, c, 64 h + w).
  * `scale_eq`: for any gate d : [32, 8], the kernel's x · d read through its three reshapes is the reference's d · x with d
    broadcast: both are x (t, b, c, h, w) times d (t, b), and the product of extended reals commutes.
  * `finite_of_pre`: the precondition says every |x i| is below +∞, so every x i is a real.
-/
import proofs.«170545_j72413148610925_2_alg».proof.Proof.Gen.ReferenceIdeal.Read
import proofs.«170545_j72413148610925_2_alg».proof.Pre_finite_inputs
import proofs.«170545_j72413148610925_2_alg».proof.Proof.Gen.Pre_finite_inputs
import proofs.«170545_j72413148610925_2_alg».proof.Proof.Spec
import Idealize.ShloMosaic.Lib.Pipeline.Value
import Idealize.ShloMosaic.Lib.ValueIdx
import Idealize.ShloMosaic.Lib.ReduceAll
import Idealize.ShloMosaic.PureOps.Ideal.Laws

set_option maxRecDepth 16384

noncomputable section

namespace Cert.ReferenceIdeal.RefValue

open Cert.ReferenceIdeal Cert.ReferenceIdeal.Gen Cert.Squeeze
open Idealize.ShloMosaic Idealize.ShloMosaic.TcCoe Idealize.SL.Sem Idealize.ShloMosaic.ValueIdx

/-- The gate chain as one function of the pooled [32, 8] array and the two weight arrays (the reference's spelling). -/
def gate (s : FVec Ideal S32x8 .f32) (w1 w2 : FVec Ideal S32x32 .f32) : FVec Ideal S32x8 .f32 :=
  transpose S32x8 [1, 0] (Host.divf (F := Ideal) (broadcastInDim S8x32 ![] bcast_S_S8x32 (constant (F := Ideal) S_ .f32 0x3F800000#32)) (addf (broadcastInDim S8x32 ![] bcast_S_S8x32 (constant (F := Ideal) S_ .f32 0x3F800000#32)) (Host.exp (F := Ideal) (Host.negf (F := Ideal) (Host.dotGeneral (F := Ideal) dot_S8x32_S32x32_S8x32_1_0_0_1_n_n none (maximumf (Host.dotGeneral (F := Ideal) dot_S8x32_S32x32_S8x32_1_0_0_1_n_n none (transpose S8x32 [1, 0] s transposes_S32x8_S8x32_1_0) (transpose S32x32 [1, 0] w1 transposes_S32x32_S32x32_1_0)) (broadcastInDim S8x32 ![] bcast_S_S8x32 (constant (F := Ideal) S_ .f32 0x00000000#32))) (transpose S32x32 [1, 0] w2 transposes_S32x32_S32x32_1_0)))))) transposes_S8x32_S32x8_1_0

/-- The reference's result is the broadcast gate of its own pooled array, times x. -/
theorem val_eq (x : FVec Ideal S32x8x64x64x64 .f32) (w1 w2 : FVec Ideal S32x32 .f32) :
    Read.val_main_v18 (F := Ideal) x w1 w2
      = mulf (broadcastInDim S32x8x64x64x64 ![0, 1, 2, 3, 4] bcast_S32x8x1x1x1_S32x8x64x64x64_0_1_2_3_4
          (broadcastInDim S32x8x1x1x1 ![0, 1] bcast_S32x8_S32x8x1x1x1_0_1 (gate (Read.val_main_v2 (F := Ideal) x) w1 w2))) x := rfl

/-- The reference's mean at (t, b). -/
theorem ref_pool (x : FVec Ideal S32x8x64x64x64 .f32) (t : Fin 32) (b : Fin 8) :
    Read.val_main_v2 (F := Ideal) x (ix2 t b)
      = Ideal.div (0 + ∑ c : Fin 64, ∑ q : Fin 4096,
          x (ix5 t b c (⟨q.val / 64, by have := q.isLt; omega⟩ : Fin 64) (⟨q.val % 64, by omega⟩ : Fin 64)))
          (Ideal.ofBits .f32 0x48800000#32) := by
  rw [Read.val_main_v2_apply, Read.val_main_v1_apply, Read.val_main_cst_0_apply]
  show Ideal.div (Ideal.ofBits .f32 0x00000000#32
      + ∑ i ∈ Finset.univ.filter (fun i => reducesTo_S32x8x64x64x64_S32x8_d2_3_4.drop i = ix2 t b), x i)
      (Ideal.ofBits .f32 0x48800000#32) = _
  rw [Ideal.ofBits_zero_f32, sum_filter_drop]

/-- For finite x the kernel's pooled array, reshaped to [32, 8], is the reference's mean. -/
theorem pool_eq (x : FVec Ideal S32x8x64x64x64 .f32) (hfin : ∀ i, ∃ r : ℝ, x i = (r : EReal))
    (h4 : X5.ShapeCasts X4) (h2 : P4.ShapeCasts P2) :
    shapeCast P2 (pooled (shapeCast X4 x h4)) h2 = Read.val_main_v2 (F := Ideal) x := by
  choose r hr using hfin
  funext j
  obtain ⟨t, b, rfl⟩ : ∃ (t : Fin 32) (b : Fin 8), j = ix2 t b := ⟨j 0, j 1, eq_ix2 j⟩
  rw [ref_pool]
  refine (shapeCast_apply (pooled (shapeCast X4 x h4)) h2 (ix2 t b) (ix4 t b (0 : Fin 1) (0 : Fin 1)) ?_).trans ?_
  · rw [Shape.rowMajor_val_two, Shape.rowMajor_val_four]
    show ((t.val * 8 + b.val) * 1 + 0) * 1 + 0 = t.val * 8 + b.val
    omega
  show Ideal.div (∑ c : Fin 64, Ideal.div (∑ q : Fin 4096, shapeCast X4 x h4 (ix4 t b c q)) (Ideal.ofBits .f32 0x45800000#32))
      (Ideal.ofBits .f32 0x42800000#32) = _
  have hx : ∀ (c : Fin 64) (q : Fin 4096), shapeCast X4 x h4 (ix4 t b c q)
      = ((r (ix5 t b c (⟨q.val / 64, by have := q.isLt; omega⟩ : Fin 64) (⟨q.val % 64, by omega⟩ : Fin 64)) : ℝ) : EReal) := by
    intro c q
    rw [← hr]
    refine shapeCast_apply x h4 (ix4 t b c q) _ ?_
    rw [Shape.rowMajor_val_five, Shape.rowMajor_val_four]
    have hq := q.isLt
    show (((t.val * 8 + b.val) * 64 + c.val) * 64 + q.val / 64) * 64 + q.val % 64 = ((t.val * 8 + b.val) * 64 + c.val) * 4096 + q.val
    omega
  simp only [hx, hr, ofBits_4096, ofBits_64, ofBits_262144]
  exact mean_of_means fun c q => r (ix5 t b c (⟨q.val / 64, by have := q.isLt; omega⟩ : Fin 64) (⟨q.val % 64, by omega⟩ : Fin 64))

/-- The [32, 8, 1, 1, 1] shape the reference broadcasts the gate through. -/
abbrev Q5 : Shape := ⟨5, ![32, 8, 1, 1, 1]⟩

/-- For any gate d : [32, 8]: the kernel's product, read through its reshapes, is the reference's product with the
    broadcast gate. -/
theorem scale_eq (x : FVec Ideal S32x8x64x64x64 .f32) (d : FVec Ideal S32x8 .f32)
    (h4 : X5.ShapeCasts X4) (hd : P2.ShapeCasts P4) (h5 : X4.ShapeCasts X5) :
    shapeCast X5 (scaled (shapeCast X4 x h4) (shapeCast P4 d hd)) h5
      = mulf (broadcastInDim S32x8x64x64x64 ![0, 1, 2, 3, 4] bcast_S32x8x1x1x1_S32x8x64x64x64_0_1_2_3_4
          (broadcastInDim S32x8x1x1x1 ![0, 1] bcast_S32x8_S32x8x1x1x1_0_1 d)) x := by
  funext i
  obtain ⟨t, b, c, h, w, rfl⟩ : ∃ (t : Fin 32) (b : Fin 8) (c : Fin 64) (h : Fin 64) (w : Fin 64), i = ix5 t b c h w :=
    ⟨i 0, i 1, i 2, i 3, i 4, eq_ix5 i⟩
  have hh := h.isLt
  have hw := w.isLt
  -- the right side: the gate at (t, b) times x at the index
  have hR : (broadcastInDim S32x8x64x64x64 ![0, 1, 2, 3, 4] bcast_S32x8x1x1x1_S32x8x64x64x64_0_1_2_3_4
      (broadcastInDim S32x8x1x1x1 ![0, 1] bcast_S32x8_S32x8x1x1x1_0_1 d)) (ix5 t b c h w) = d (ix2 t b) := by
    refine (broadcastInDim_apply _ bcast_S32x8x1x1x1_S32x8x64x64x64_0_1_2_3_4 _ (ix5 t b c h w)
      (ix5 t b (0 : Fin 1) (0 : Fin 1) (0 : Fin 1)) (fun a => by
        match a with
        | ⟨0, _⟩ => show t.val = if (32 : Nat) = 1 then 0 else t.val; rw [if_neg (by decide)]
        | ⟨1, _⟩ => show b.val = if (8 : Nat) = 1 then 0 else b.val; rw [if_neg (by decide)]
        | ⟨2, _⟩ => show 0 = if (1 : Nat) = 1 then 0 else c.val; rw [if_pos rfl]
        | ⟨3, _⟩ => show 0 = if (1 : Nat) = 1 then 0 else h.val; rw [if_pos rfl]
        | ⟨4, _⟩ => show 0 = if (1 : Nat) = 1 then 0 else w.val; rw [if_pos rfl])).trans ?_
    exact broadcastInDim_apply _ bcast_S32x8_S32x8x1x1x1_0_1 d (ix5 t b (0 : Fin 1) (0 : Fin 1) (0 : Fin 1)) (ix2 t b) (fun a => by
      match a with
      | ⟨0, _⟩ => show t.val = if (32 : Nat) = 1 then 0 else t.val; rw [if_neg (by decide)]
      | ⟨1, _⟩ => show b.val = if (8 : Nat) = 1 then 0 else b.val; rw [if_neg (by decide)])
  -- the left side: x at the index times the gate at (t, b)
  have hL : shapeCast X5 (scaled (shapeCast X4 x h4) (shapeCast P4 d hd)) h5 (ix5 t b c h w)
      = x (ix5 t b c h w) * d (ix2 t b) := by
    refine (shapeCast_apply _ h5 (ix5 t b c h w) (ix4 t b c (⟨h.val * 64 + w.val, by omega⟩ : Fin 4096)) ?_).trans ?_
    · rw [Shape.rowMajor_val_five, Shape.rowMajor_val_four]
      show ((t.val * 8 + b.val) * 64 + c.val) * 4096 + (h.val * 64 + w.val)
        = (((t.val * 8 + b.val) * 64 + c.val) * 64 + h.val) * 64 + w.val
      omega
    show shapeCast X4 x h4 (ix4 t b c (⟨h.val * 64 + w.val, by omega⟩ : Fin 4096))
        * shapeCast P4 d hd (ix4 t b (0 : Fin 1) (0 : Fin 1)) = _
    have e1 : shapeCast X4 x h4 (ix4 t b c (⟨h.val * 64 + w.val, by omega⟩ : Fin 4096)) = x (ix5 t b c h w) := by
      refine shapeCast_apply x h4 _ (ix5 t b c h w) ?_
      rw [Shape.rowMajor_val_five, Shape.rowMajor_val_four]
      show (((t.val * 8 + b.val) * 64 + c.val) * 64 + h.val) * 64 + w.val
        = ((t.val * 8 + b.val) * 64 + c.val) * 4096 + (h.val * 64 + w.val)
      omega
    have e2 : shapeCast P4 d hd (ix4 t b (0 : Fin 1) (0 : Fin 1)) = d (ix2 t b) := by
      refine shapeCast_apply d hd _ (ix2 t b) ?_
      rw [Shape.rowMajor_val_two, Shape.rowMajor_val_four]
      show t.val * 8 + b.val = ((t.val * 8 + b.val) * 1 + 0) * 1 + 0
      omega
    rw [e1, e2]
  rw [hL]
  show _ = (broadcastInDim S32x8x64x64x64 ![0, 1, 2, 3, 4] bcast_S32x8x1x1x1_S32x8x64x64x64_0_1_2_3_4
      (broadcastInDim S32x8x1x1x1 ![0, 1] bcast_S32x8_S32x8x1x1x1_0_1 d)) (ix5 t b c h w) * x (ix5 t b c h w)
  rw [hR, mul_comm]

/-! ## Finite inputs -/

instance : Subsingleton Cert.Pre_finite_inputs.S_.Idx := ⟨fun a b => funext fun d => d.elim0⟩

/-- The bit pattern 0x7F800000 is +∞. -/
theorem ofBits_inf : Ideal.ofBits .f32 0x7F800000#32 = (⊤ : EReal) := by
  simp [Ideal.ofBits, Ideal.ieee]

/-- Under the precondition every entry of x is a real number. -/
theorem finite_of_pre (x : FVec Ideal S32x8x64x64x64 .f32) (w1 w2 : FVec Ideal S32x32 .f32)
    (hpre : Cert.Pre_finite_inputs.fn (F := Ideal) x w1 w2 = fun _ => 1#1) (i : S32x8x64x64x64.Idx) :
    ∃ r : ℝ, x i = (r : EReal) := by
  have h0 := congrFun hpre ValueIdx.ix0
  dsimp only [Cert.Pre_finite_inputs.fn] at h0
  obtain ⟨h1, -⟩ := IntOp.andi_eq_one.1 h0
  obtain ⟨hx, -⟩ := IntOp.andi_eq_one.1 h1
  have hi := Host.reduce_andi_all _ _ _ _ _ hx i
  have hlt : max (x i) (-(x i)) < (⊤ : EReal) := by
    have : Ideal.cmp .olt (max (x i) (-(x i))) (Ideal.ofBits .f32 0x7F800000#32) = 1#1 := hi
    rw [ofBits_inf] at this
    by_contra hc
    simp [Ideal.cmp, hc] at this
  induction hxi : x i using EReal.rec with
  | bot => rw [hxi] at hlt; simp at hlt
  | top => rw [hxi] at hlt; simp at hlt
  | coe r => exact ⟨r, rfl⟩

end Cert.ReferenceIdeal.RefValue

end
-- ==== Proof.lean ====
/-
  Squeeze-and-excite over x : [32, 8, 64, 64, 64] with two 32 × 32 weight arrays: the gate of (t, b) is the logistic function of
  w2 · relu (w1 · mean) along t, where mean (t, b) is the mean of the [64, 64, 64] slab of x at (t, b), and every entry of x is
  multiplied by the gate of its (t, b).

  The kernel program reshapes x to [32, 8, 64, 4096], takes the mean in a first pipelined region one trailing axis at a time
  (the mean over the 64 channels of each channel's mean over 4096 positions), runs the gate chain on the host, and
  multiplies in a second pipelined region; the reference takes one mean over the three trailing axes, runs the same gate
  chain, and multiplies the broadcast gate into x.

  At the ideal values the two results are equal entry by entry, for finite inputs:
  * the kernel's result buffer after its run is named by the run over the program's segments (Proof/RunValue.lean) and read
    back through the host stretches and the two regions (Proof/HostSide.lean over Proof/Reduce.lean and Proof/Scale.lean) as
    `reshape (scaled (reshape x) (reshape (gate (reshape (pooled (reshape x))) w1 w2)))`;
  * the reference's result is its generated run, `bcast (gate (mean x) w1 w2) · x`;
  * the pooled values agree because x is finite (Proof/Spec.lean `mean_of_means`, Proof/RefSide.lean `pool_eq`): this is where
    the precondition is used;
  * the gate chain is one function of the pooled array on both sides: a host matrix product at the ideal values is the sum
    of products whatever its precision attribute (`dot_irrel`), and everything else in the chain is spelt alike;
  * the final products agree by commutativity (Proof/RefSide.lean `scale_eq`).
  The ideal pass rewrote nothing in the kernel, so the idealization claim is trivial; the three frames are the generated
  frame certificates and the reference's generated run.
-/
import proofs.«170545_j72413148610925_2_alg».proof.Defs
import proofs.«170545_j72413148610925_2_alg».proof.Proof.Gen.Kernel
import proofs.«170545_j72413148610925_2_alg».proof.Proof.Gen.Kernel.Skeleton
import proofs.«170545_j72413148610925_2_alg».proof.Proof.Gen.Kernel.Launch
import proofs.«170545_j72413148610925_2_alg».proof.Proof.Gen.Kernel.Points
import proofs.«170545_j72413148610925_2_alg».proof.Proof.Gen.Kernel.Frame
import proofs.«170545_j72413148610925_2_alg».proof.Proof.Gen.KernelIdeal
import proofs.«170545_j72413148610925_2_alg».proof.Proof.Gen.KernelIdeal.Skeleton
import proofs.«170545_j72413148610925_2_alg».proof.Proof.Gen.KernelIdeal.Launch
import proofs.«170545_j72413148610925_2_alg».proof.Proof.Gen.KernelIdeal.Points
import proofs.«170545_j72413148610925_2_alg».proof.Proof.Gen.KernelIdeal.Frame
import proofs.«170545_j72413148610925_2_alg».proof.Proof.Gen.ReferenceIdeal
import proofs.«170545_j72413148610925_2_alg».proof.Proof.Gen.ReferenceIdeal.Run
import proofs.«170545_j72413148610925_2_alg».proof.Proof.Gen.ReferenceIdeal.Read
import proofs.«170545_j72413148610925_2_alg».proof.Proof.Gen.Pre_finite_inputs
import proofs.«170545_j72413148610925_2_alg».proof.Proof.RunValue
import proofs.«170545_j72413148610925_2_alg».proof.Proof.HostSide
import proofs.«170545_j72413148610925_2_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

/-- At the ideal values a host matrix product is the sum of the products over the contracted axis: its precision
    attribute and the spelling of its dimension record do not enter. -/
theorem dot_irrel {sl sr so : Shape} (D D' : DotDims sl sr so) (hD : D = D') (p p' : Option ContractPrecision)
    (l : FVec Ideal sl .f32) (r : FVec Ideal sr .f32) :
    Host.dotGeneral (F := Ideal) D p l r = Host.dotGeneral (F := Ideal) D' p' l r := by
  subst hD
  funext j
  simp only [Host.dotGeneral]
  rw [Ideal.dotGeneral_apply, Ideal.dotGeneral_apply]

/-- The gate chain is one function on both sides. -/
theorem gate_eq (s : FVec Ideal Cert.KernelIdeal.S32x8 .f32) (w1 w2 : FVec Ideal Cert.KernelIdeal.S32x32 .f32) :
    Cert.KernelIdeal.Host.gate s w1 w2 = Cert.ReferenceIdeal.RefValue.gate s w1 w2 := by
  unfold Cert.KernelIdeal.Host.gate Cert.ReferenceIdeal.RefValue.gate
  rw [dot_irrel Cert.KernelIdeal.dot_S8x32_S32x32_S8x32_1_0_0_1_n_n Cert.ReferenceIdeal.dot_S8x32_S32x32_S8x32_1_0_0_1_n_n rfl
      (some .fp32) none,
    dot_irrel Cert.KernelIdeal.dot_S8x32_S32x32_S8x32_1_0_0_1_n_n Cert.ReferenceIdeal.dot_S8x32_S32x32_S8x32_1_0_0_1_n_n rfl
      (some .fp32) none]

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the reference's value of the launched arguments in their result buffers. -/
theorem algebraic : Cert.algebraic_KernelIdeal_ReferenceIdeal := by
  intro m ρ m' ρ' hpre hagree
  refine ⟨fun c => Cert.ReferenceIdeal.Read.val_main_v18 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.RunValue.run_result (F := Ideal) m ρ)
    have hfin := Cert.ReferenceIdeal.RefValue.finite_of_pre _ _ _ (hpre c)
    rw [Cert.KernelIdeal.Host.result_eq, gate_eq, Cert.ReferenceIdeal.RefValue.pool_eq _ hfin,
      Cert.ReferenceIdeal.RefValue.scale_eq]
    exact (Cert.ReferenceIdeal.RefValue.val_eq _ _ _).symm
  · refine (θ_run Cert.ReferenceIdeal.defs _ _).mono (fun _ h c => ⟨?_, (h c).2⟩)
      (Cert.ReferenceIdeal.Value.run (F := Ideal) m' ρ')
    rw [(h c).1, Cert.ReferenceIdeal.Read.val_main_v18_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
